-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1024x512 : Shape := ⟨2, ![1024, 512]⟩
abbrev S2048x512 : Shape := ⟨2, ![2048, 512]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S2048, .f32⟩
  | .local _ .vmem, ⟨5, _⟩ => ⟨S2048, .f32⟩
  | .local _ .vmem, ⟨6, _⟩ => ⟨S1024x2048, .f32⟩
  | .local _ .vmem, ⟨7, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S4096.size a
  hwx0_2 : ∀ i : grid0.Coords, EltTy.bits .f32 = 32 ∨ (Rect.block (s := S4096) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S1x4096, .f32⟩
  | .hbm, ⟨29, _⟩ => ⟨S8192x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_cst_2 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v5 : Ref sig .tc := ⟨.hbm, 17, rfl⟩
abbrev main_cst_3 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Quantized.lean ====
/-
  What the layer computes, as one function of its three argument arrays.

  An activation `v` is put on the 8-bit grid and shifted by the zero point: divided by the input scale, the zero point
  added, rounded to the nearest integer (ties to even), clamped to `[0, 255]`, the zero point subtracted again
  (`qshift`).  Entry `(t, o)` of the result is the contraction over the input features `k` of the shifted activation
  `(t, k)` with the weight `(o, k)`, times the product of the two scales, plus the bias `o` times its scale (`layer`).
  The float literals stay the words both programs print; none is evaluated.
-/
import Idealize.ShloMosaic.Lib.ValueIdx
import Idealize.ShloMosaic.PureOps.Ideal.Laws

noncomputable section

open scoped BigOperators

namespace Cert.Quant

open Idealize.ShloMosaic Idealize.ShloMosaic.ValueIdx

/-- One activation quantized and shifted: `clamp (roundeven (v / s + z)) 0 255 - z`. -/
def qshift (v : EReal) : EReal :=
  min (Ideal.ofBits .f32 0x437F0000#32)
      (max (Ideal.ofBits .f32 0x00000000#32)
        (Ideal.liftRound Ideal.roundHalfEven
          (Ideal.div v (Ideal.ofBits .f32 0x3C008081#32) + Ideal.ofBits .f32 0x42FE0000#32)))
    - Ideal.ofBits .f32 0x42FE0000#32

/-- The quantized linear layer: `(∑ k, qshift x[t, k] · w[o, k]) · s + b[o] · s'`. -/
def layer (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal := fun i =>
  (∑ k : Fin 4096, qshift (x (ix2 (i 0) k)) * w (ix2 (i 1) k)) * Ideal.ofBits .f32 0x38A47B86#32
    + b (ix1 (i 1)) * Ideal.ofBits .f32 0x38D1B717#32

end Cert.Quant

end
-- ==== Proof.Reference.lean ====
/-
  The reference, read index by index, is the quantized layer.

  Its operations are all pointwise except one contraction: constants broadcast over the array, the quotient by the
  input scale, the zero point added, the rounding, the two clamps, the zero point subtracted — together `qshift` of
  the activation at the same index —, then the contraction of the second axes of the shifted activations and the
  weights, the product with the scales, and the scaled bias broadcast along the rows.
-/
import proofs.«137161_j16810501996913_2_alg».proof.Proof.Gen.ReferenceIdeal.Read
import proofs.«137161_j16810501996913_2_alg».proof.Proof.Quantized

noncomputable section

open scoped BigOperators

namespace Cert.RefBridge

open Cert.ReferenceIdeal Cert.ReferenceIdeal.Gen Cert.ReferenceIdeal.Read
open Idealize.ShloMosaic Idealize.ShloMosaic.ValueIdx

/-- The reference's shifted activation at an index is `qshift` of the activation there. -/
theorem shifted_apply (x0 : (⟨S8192x4096, .f32⟩ : BufTy).Contents (Elt Ideal)) (j : S8192x4096.Idx) :
    val_main_v7 (F := Ideal) x0 j = Cert.Quant.qshift (x0 j) := by
  rw [val_main_v7_apply, val_main_v5_apply, val_main_call1_v4_apply, val_main_call1_v3_apply, val_main_cst_2_apply,
    val_main_call1_v2_apply, val_main_call1_v1_apply, val_main_call1_v0_apply, val_main_cst_1_apply,
    val_main_v4_apply, val_main_v3_apply, val_main_v1_apply, val_main_v0_apply, val_main_cst_apply,
    val_main_v2_apply, val_main_cst_0_apply, val_main_v6_apply, val_main_cst_3_apply]
  rfl

/-- The contraction reads the left operand along row `i 0` … -/
theorem lidx_eq (i : S8192x4096.Idx) (k : Fin 4096) : lidx_main_v8 i k = ix2 (i 0) k :=
  funext fun a => by match a with | ⟨0, _⟩ => rfl | ⟨1, _⟩ => rfl

/-- … and the right operand along row `i 1`. -/
theorem ridx_eq (i : S8192x4096.Idx) (k : Fin 4096) : ridx_main_v8 i k = ix2 (i 1) k :=
  funext fun a => by match a with | ⟨0, _⟩ => rfl | ⟨1, _⟩ => rfl

/-- The bias is read at the column. -/
theorem bias_idx_eq (i : S8192x4096.Idx) : idx_main_v13 (idx_main_v14 i) = ix1 (i 1) :=
  funext fun a => by match a with | ⟨0, _⟩ => rfl

/-- The reference's result is the quantized layer of its arguments. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v15 (F := Ideal) x0 x1 x2 = Cert.Quant.layer x0 x1 x2 := by
  funext i
  rw [val_main_v15_apply, val_main_v10_apply, val_main_v8_apply, val_main_v9_apply, val_main_cst_4_apply,
    val_main_v14_apply, val_main_v13_apply, val_main_v12_apply, val_main_v11_apply, val_main_cst_5_apply, bias_idx_eq]
  simp only [shifted_apply, lidx_eq, ridx_eq]
  rfl

end Cert.RefBridge

end
-- ==== Proof.LibDotNT.lean ====
/-
  A matrix product against a transposed right operand, read at an index.

  For dimension numbers `D` of a product of an `M × K` operand with an `N × K` operand into `M × N` that contract ONE
  axis — the second axis of each operand, no batch axis (`x · wᵀ`) — the sum over `D`'s contraction index that the ideal
  instance gives for a `tpu.matmul` and for a host `dot_general` alike is the textbook one: entry `(r, c)` is the sum over
  `k : Fin K` of the left operand at `(r, k)` times the right operand at `(c, k)`.  What makes a given `D` of this kind is
  stated as four facts about the coordinates of its operand indices, which a concrete record proves by unfolding its
  lists of axes.
-/
import Idealize.ShloMosaic.Lib.ValueIdx
import Idealize.ShloMosaic.PureOps.Ideal.Laws

noncomputable section

open scoped BigOperators

namespace Cert.Lib.DotNT

open Idealize.ShloMosaic Idealize.ShloMosaic.ValueIdx

/-- The contraction sum re-indexed by the contracted axis' coordinate: at the output index `j` the left operand is
    read along its row `j 0` and the right operand along its row `j 1`. -/
theorem sum_nt {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` with such dimension numbers, at the ideal instance: the accumulator's entry plus that sum. -/
theorem matmul_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (acc : FVec Ideal (⟨2, ![M, N]⟩ : Shape) .f32) (j : (⟨2, ![M, N]⟩ : Shape).Idx) :
    FloatOps.matmul D prec l r acc j = acc j + ∑ k : Fin K, l (ix2 (j 0) k) * r (ix2 (j 1) k) := by
  rw [Ideal.matmul_apply]
  exact congrArg (acc j + ·) (sum_nt D hr hs l0 l1 r0 r1 l r j)

/-- Into the zero accumulator: just the sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_nt D hr hs l0 l1 r0 r1 l r j

/-- A host `dot_general` with such dimension numbers, at the ideal instance, is the same sum, whatever its precision
    and schedule keys. -/
theorem dotGeneral_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision) (sched : HostSchedule)
    (l : FVec Ideal (⟨2, ![M, K]⟩ : Shape) φ₁) (r : FVec Ideal (⟨2, ![N, K]⟩ : Shape) φ₂)
    (j : (⟨2, ![M, N]⟩ : Shape).Idx) :
    FloatOps.dotGeneral D prec sched l r j = ∑ k : Fin K, l (ix2 (j 0) k) * r (ix2 (j 1) k) := by
  rw [Ideal.dotGeneral_apply]
  exact sum_nt D hr hs l0 l1 r0 r1 l r j

end Cert.Lib.DotNT

end
-- ==== Proof.Payloads.lean ====
/-
  What one grid point computes, entry by entry, at the ideal instance.

  The body stores three values.  The first is the zero block the accumulator starts from.  The second is the
  accumulator plus the product of the point's quantized and shifted activation block `[1024, 512]` with its weight block
  `[2048, 512]`, the second axes contracted: entry `(a, q)` gains `∑ kk, qshift x[a, kk] · w[q, kk]` (the rounding to
  bf16 on the way into the product is the identity on extended reals).  The third, at the last point of a run, scales
  the accumulator and adds the scaled bias of the column.
-/
import proofs.«137161_j16810501996913_2_alg».proof.Proof.Gen.KernelIdeal.Skeleton
import proofs.«137161_j16810501996913_2_alg».proof.Proof.Quantized
import proofs.«137161_j16810501996913_2_alg».proof.Proof.LibDotNT
import Idealize.ShloMosaic.Lib.ValueLayout

noncomputable section

open scoped BigOperators

namespace Cert.KernelBridge

open Cert.KernelIdeal Cert.KernelIdeal.Gen
open Idealize.ShloMosaic Idealize.ShloMosaic.ValueIdx

/-! ## The block product's dimension numbers: rows of the left operand against rows of the right -/

theorem dot_l0 (j : S1024x2048.Idx) (q : dot_S1024x512_S2048x512_S1024x2048_1_1_0_0_n_n.contr.Idx) :
    (dot_S1024x512_S2048x512_S1024x2048_1_1_0_0_n_n.lhsIdx j q 0).val = (j 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl

theorem dot_l1 (j : S1024x2048.Idx) (q : dot_S1024x512_S2048x512_S1024x2048_1_1_0_0_n_n.contr.Idx) :
    (dot_S1024x512_S2048x512_S1024x2048_1_1_0_0_n_n.lhsIdx j q 1).val = (q ⟨0, by decide⟩).val :=
  dot_S1024x512_S2048x512_S1024x2048_1_1_0_0_n_n.lhsIdx_val_of_single rfl j q

theorem dot_r0 (j : S1024x2048.Idx) (q : dot_S1024x512_S2048x512_S1024x2048_1_1_0_0_n_n.contr.Idx) :
    (dot_S1024x512_S2048x512_S1024x2048_1_1_0_0_n_n.rhsIdx j q 0).val = (j 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl

theorem dot_r1 (j : S1024x2048.Idx) (q : dot_S1024x512_S2048x512_S1024x2048_1_1_0_0_n_n.contr.Idx) :
    (dot_S1024x512_S2048x512_S1024x2048_1_1_0_0_n_n.rhsIdx j q 1).val = (q ⟨0, by decide⟩).val :=
  dot_S1024x512_S2048x512_S1024x2048_1_1_0_0_n_n.rhsIdx_val_of_single rfl j q

/-! ## The three stored values at an entry -/

/-- The block the accumulator starts from is zero everywhere. -/
theorem zeros_apply (j : S1024x2048.Idx) : k0_pay1 (F := Ideal) j = 0 := by
  show Ideal.ofBits .f32 0x00000000#32 = 0
  exact Ideal.ofBits_zero_f32

/-- One point's step: the accumulator's entry plus the block product's entry. -/
theorem step_apply (x : FVec Ideal S1024x512 .f32) (w : FVec Ideal S2048x512 .bf16) (acc : FVec Ideal S1024x2048 .f32)
    (a : Fin 1024) (q : Fin 2048) :
    k0_pay2 (F := Ideal) x w acc (ix2 a q)
      = acc (ix2 a q) + ∑ kk : Fin 512, Cert.Quant.qshift (x (ix2 a kk)) * w (ix2 q kk) := by
  unfold k0_pay2
  simp only [shapeCast_self]
  refine congrArg (acc (ix2 a q) + ·) ?_
  refine (Cert.Lib.DotNT.matmul_zero_apply (φ₁ := .bf16) (φ₂ := .bf16) dot_S1024x512_S2048x512_S1024x2048_1_1_0_0_n_n rfl rfl dot_l0 dot_l1 dot_r0 dot_r1 none _ _ (ix2 a q)).trans ?_
  exact Finset.sum_congr rfl fun kk _ => rfl

/-- The last point's epilogue: the accumulator's entry scaled, plus the column's scaled bias. -/
theorem epilogue_apply (b : FVec Ideal S2048 .f32) (acc : FVec Ideal S1024x2048 .f32) (a : Fin 1024) (q : Fin 2048) :
    k0_pay3 (F := Ideal) b acc (ix2 a q)
      = acc (ix2 a q) * Ideal.ofBits .f32 0x38A47B86#32 + b (ix1 q) * Ideal.ofBits .f32 0x38D1B717#32 := by
  unfold k0_pay3
  simp only [shapeCast_self]
  refine congrArg (acc (ix2 a q) * Ideal.ofBits .f32 0x38A47B86#32 + ·) ?_
  refine (broadcastTo_1b_ab_apply _ _ a q).trans ?_
  refine (shapeCast_a_1a_apply _ _ (0 : Fin 1) q).trans ?_
  rfl

end Cert.KernelBridge

end
-- ==== Proof.Blocks.lean ====
/-
  Which entries of the argument arrays a grid point sees.

  The grid is `8 × 2 × 8`: point `t` is row tile `t / 16`, column tile `(t / 8) % 2`, contraction step `t % 8`.  Its
  activation block is rows `1024 · (t / 16) …` and features `512 · (t % 8) …` of `x`; its weight block is rows
  `2048 · ((t / 8) % 2) …` and the same features of `w` (which enters the region rounded to bf16: the identity on
  extended reals); its bias block is entries `2048 · ((t / 8) % 2) …` of `b`.
-/
import proofs.«137161_j16810501996913_2_alg».proof.Proof.Gen.KernelIdeal.Frame.Runs
import Idealize.ShloMosaic.Lib.StableHlo.Run
import Idealize.ShloMosaic.Lib.Pipeline.Value
import Idealize.ShloMosaic.Lib.ValueIdx

noncomputable section

namespace Cert.KernelBridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The printed index maps, decided over the grid -/

theorem x_index : ∀ t : Fin cfg0.N, win0_0.index t (0 : Fin 2) = t.val / 16 ∧ win0_0.index t (1 : Fin 2) = t.val % 8 :=
  (by decide +kernel : ∀ t : Fin grid0.N, win0_0.index t (0 : Fin 2) = t.val / 16 ∧ win0_0.index t (1 : Fin 2) = t.val % 8)

theorem w_index : ∀ t : Fin cfg0.N, win0_1.index t (0 : Fin 2) = t.val / 8 % 2 ∧ win0_1.index t (1 : Fin 2) = t.val % 8 :=
  (by decide +kernel : ∀ t : Fin grid0.N, win0_1.index t (0 : Fin 2) = t.val / 8 % 2 ∧ win0_1.index t (1 : Fin 2) = t.val % 8)

theorem b_index : ∀ t : Fin cfg0.N, win0_2.index t (0 : Fin 1) = t.val / 8 % 2 :=
  (by decide +kernel : ∀ t : Fin grid0.N, win0_2.index t (0 : Fin 1) = t.val / 8 % 2)

/-! ## The weights as the region finds them -/

/-- The one host operation before the region rounds the weights to bf16; on extended reals it changes nothing. -/
theorem V_weights (c : Dev nD) :
    (V m c main_v0 : S4096x4096.Idx → EReal) = (m ((c : Thread nD τ).loc main_arg1) : S4096x4096.Idx → EReal) := by
  dsimp only [V, hostOps0]; after_results; rfl

/-! ## The blocks, entry by entry -/

/-- Entry `(a, kk)` of point `t`'s activation block is `x[1024 · (t / 16) + a, 512 · (t % 8) + kk]`. -/
theorem x_block (c : Dev nD) (t : Fin cfg0.N) (a : Fin 1024) (kk : Fin 512) (r : Fin 8192) (k : Fin 4096)
    (hr : r.val = 1024 * (t.val / 16) + a.val) (hk : k.val = 512 * (t.val % 8) + kk.val) :
    (iblk m c 0 t (ix2 a kk) : EReal) = (m ((c : Thread nD τ).loc main_arg0) : S8192x4096.Idx → EReal) (ix2 r k) := by
  obtain ⟨e0, e1⟩ := x_index t
  unfold iblk
  rw [View.read_apply]
  show (V m c main_arg0 : S8192x4096.Idx → EReal) _ = _
  rw [V_main_arg0]
  refine congrArg _ (funext fun ax => Fin.ext ?_)
  match ax with
  | ⟨0, _⟩ => show win0_0.index t 0 * 1024 + 1 * a.val = r.val; rw [e0, hr]; omega
  | ⟨1, _⟩ => show win0_0.index t 1 * 512 + 1 * kk.val = k.val; rw [e1, hk]; omega

/-- Entry `(q, kk)` of point `t`'s weight block is `w[2048 · ((t / 8) % 2) + q, 512 · (t % 8) + kk]`. -/
theorem w_block (c : Dev nD) (t : Fin cfg0.N) (q : Fin 2048) (kk : Fin 512) (o : Fin 4096) (k : Fin 4096)
    (ho : o.val = 2048 * (t.val / 8 % 2) + q.val) (hk : k.val = 512 * (t.val % 8) + kk.val) :
    (iblk m c 1 t (ix2 q kk) : EReal) = (m ((c : Thread nD τ).loc main_arg1) : S4096x4096.Idx → EReal) (ix2 o k) := by
  obtain ⟨e0, e1⟩ := w_index t
  unfold iblk
  rw [View.read_apply]
  show (V m c main_v0 : S4096x4096.Idx → EReal) _ = _
  rw [V_weights]
  refine congrArg _ (funext fun ax => Fin.ext ?_)
  match ax with
  | ⟨0, _⟩ => show win0_1.index t 0 * 2048 + 1 * q.val = o.val; rw [e0, ho]; omega
  | ⟨1, _⟩ => show win0_1.index t 1 * 512 + 1 * kk.val = k.val; rw [e1, hk]; omega

/-- Entry `q` of point `t`'s bias block is `b[2048 · ((t / 8) % 2) + q]`. -/
theorem b_block (c : Dev nD) (t : Fin cfg0.N) (q : Fin 2048) (o : Fin 4096)
    (ho : o.val = 2048 * (t.val / 8 % 2) + q.val) :
    (iblk m c 2 t (ix1 q) : EReal) = (m ((c : Thread nD τ).loc main_arg2) : S4096.Idx → EReal) (ix1 o) := by
  have e0 := b_index t
  unfold iblk
  rw [View.read_apply]
  show (V m c main_arg2 : S4096.Idx → EReal) _ = _
  rw [V_main_arg2]
  refine congrArg _ (funext fun ax => Fin.ext ?_)
  match ax with
  | ⟨0, _⟩ => show win0_2.index t 0 * 2048 + 1 * q.val = o.val; rw [e0, ho]; omega

end Cert.KernelBridge

end
-- ==== Proof.LibBlockSum.lean ====
/-
  A sum over a range cut into equal consecutive blocks.

  An index `k < J * K` is, uniquely, `K * s + kk` with a block number `s < J` and a place `kk < K` inside the block, so in
  any commutative additive monoid — the extended reals included, where addition is commutative and associative even at
  the infinities — a sum over all `k` is the sum over the blocks of each block's own sum.  A contraction computed block by
  block along the contracted axis and added up meets the contraction computed at once through this identity.
-/
import Idealize.ShloMosaic.Lib.ValueIdx

open scoped BigOperators

namespace Cert.Lib.BlockSum

/-- Place `kk` of block `s` is a position below `N = J * K`. -/
theorem block_lt {J K N : ℕ} (hN : J * K = N) (s : Fin J) (kk : Fin K) : K * s.val + kk.val < N := by
  have h1 : K * s.val + kk.val < K * (s.val + 1) := by
    rw [Nat.mul_succ]; exact Nat.add_lt_add_left kk.isLt _
  have h2 : K * (s.val + 1) ≤ K * J := Nat.mul_le_mul_left _ s.isLt
  rw [← hN, Nat.mul_comm J K]
  exact Nat.lt_of_lt_of_le h1 h2

/-- A sum over `Fin N`, `N = J * K`, is the sum over the `J` blocks of the sums over each block's `K` places. -/
theorem sum_blocks {β : Type*} [AddCommMonoid β] {J K N : ℕ} (hN : J * K = N) (g : Fin N → β) :
    ∑ k : Fin N, g k = ∑ s : Fin J, ∑ kk : Fin K, g ⟨K * s.val + kk.val, block_lt hN s kk⟩ := by
  subst hN
  rw [← Equiv.sum_comp (finProdFinEquiv : Fin J × Fin K ≃ Fin (J * K)) g, Fintype.sum_prod_type]
  refine Finset.sum_congr rfl fun s _ => Finset.sum_congr rfl fun kk _ => congrArg g (Fin.ext ?_)
  show kk.val + K * s.val = K * s.val + kk.val
  exact Nat.add_comm _ _

/-- The same with the blocks counted by a natural number below `J`: for a function `D` of the block number that agrees
    with the block's sum on `s < J`, the sum of `D` over `Finset.range J` is the whole sum. -/
theorem sum_range_blocks {β : Type*} [AddCommMonoid β] {J K N : ℕ} (hN : J * K = N) (g : Fin N → β) (D : ℕ → β)
    (hD : ∀ s : Fin J, D s.val = ∑ kk : Fin K, g ⟨K * s.val + kk.val, block_lt hN s kk⟩) :
    ∑ s ∈ Finset.range J, D s = ∑ k : Fin N, g k := by
  rw [sum_blocks hN g, ← Fin.sum_univ_eq_sum_range]
  exact Finset.sum_congr rfl fun s _ => hD s

end Cert.Lib.BlockSum
-- ==== Proof.KernelValue.lean ====
/-
  The kernel's result array is the quantized layer of its arguments.

  The result's block `(row tile, column tile)` is accumulated over a run of eight consecutive grid points, one per
  block of 512 input features: the run's first point stores zero plus its block product, each of the next six adds
  its own, and the eighth adds its own and then scales the sum and adds the scaled bias.  So entry `(r, o)` ends as
  `(0 + ∑ s < 8, ∑ kk < 512, qshift x[r, 512 s + kk] · w[o, 512 s + kk]) · scale + b[o] · scale'`, and the eight block
  sums are together the contraction over all 4096 features: addition of extended reals is commutative and associative,
  which is all that regrouping a finite sum needs, so no finiteness of the inputs is used.
-/
import proofs.«137161_j16810501996913_2_alg».proof.Proof.Gen.KernelIdeal.Value
import proofs.«137161_j16810501996913_2_alg».proof.Proof.Payloads
import proofs.«137161_j16810501996913_2_alg».proof.Proof.Blocks
import proofs.«137161_j16810501996913_2_alg».proof.Proof.LibBlockSum

noncomputable section

open scoped BigOperators

namespace Cert.KernelBridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## One point's blocks and its contribution -/

/-- Point `t`'s activation, weight and bias blocks, typed by their literal shapes. -/
abbrev xBlk (c : Dev nD) (t : Fin cfg0.N) : FVec Ideal S1024x512 .f32 := iblk m c 0 t
abbrev wBlk (c : Dev nD) (t : Fin cfg0.N) : FVec Ideal S2048x512 .bf16 := iblk m c 1 t
abbrev bBlk (c : Dev nD) (t : Fin cfg0.N) : FVec Ideal S2048 .f32 := iblk m c 2 t

/-- What grid point `n` adds to entry `(a, q)` of its output block: the product of its activation and weight blocks
    there (zero for a number past the grid's last point, where it is never used). -/
def addend (c : Dev nD) (n : ℕ) (a : Fin 1024) (q : Fin 2048) : EReal :=
  if h : n < cfg0.N then
    ∑ kk : Fin 512, Cert.Quant.qshift (xBlk m c ⟨n, h⟩ (ix2 a kk)) * wBlk m c ⟨n, h⟩ (ix2 q kk)
  else 0

/-- A run's first point leaves zero plus its contribution. -/
theorem reset_apply (c : Dev nD) (n : ℕ) (h : n < cfg0.N) (a : Fin 1024) (q : Fin 2048) :
    Value.reset3 m c n h (ix2 a q) = k0_pay1 (F := Ideal) (ix2 a q) + addend m c n a q := by
  unfold Value.reset3 addend
  rw [dif_pos h]
  exact step_apply _ _ _ a q

/-- A middle point of a run adds its contribution to what the point before left. -/
theorem middle_apply (c : Dev nD) (n : ℕ) (h : n < cfg0.N) (hn0 : ¬n % 8 = 0) (hn7 : ¬n % 8 = 7)
    (acc : FVec Ideal S1024x2048 .f32) (a : Fin 1024) (q : Fin 2048) :
    Value.step3 m c n h acc (ix2 a q) = acc (ix2 a q) + addend m c n a q := by
  unfold Value.step3 addend
  rw [if_pos ⟨hn0, hn7⟩, dif_pos h]
  exact step_apply _ _ _ a q

/-- A run's last point adds its contribution, scales the sum and adds the scaled bias. -/
theorem last_apply (c : Dev nD) (n : ℕ) (h : n < cfg0.N) (hn7 : n % 8 = 7)
    (acc : FVec Ideal S1024x2048 .f32) (a : Fin 1024) (q : Fin 2048) :
    Value.step3 m c n h acc (ix2 a q)
      = (acc (ix2 a q) + addend m c n a q) * Ideal.ofBits .f32 0x38A47B86#32
        + bBlk m c ⟨n, h⟩ (ix1 q) * Ideal.ofBits .f32 0x38D1B717#32 := by
  unfold Value.step3 addend
  rw [if_neg (by omega : ¬(¬n % 8 = 0 ∧ ¬n % 8 = 7)), if_pos ⟨by omega, hn7⟩, dif_pos h]
  refine (epilogue_apply _ _ a q).trans ?_
  exact congrArg (fun z : EReal => z * Ideal.ofBits .f32 0x38A47B86#32
    + bBlk m c ⟨n, h⟩ (ix1 q) * Ideal.ofBits .f32 0x38D1B717#32) (step_apply _ _ _ a q)

/-! ## A whole run -/

/-- The fold of the run of eight points from `b` (a multiple of 8), at entry `(a, q)`: the eight contributions summed,
    scaled, plus the scaled bias of the last point's bias block. -/
theorem fold_apply (c : Dev nD) (b : ℕ) (hb : b % 8 = 0) (h : b + 7 < cfg0.N) (a : Fin 1024) (q : Fin 2048) :
    Pipeline.accAt (Value.reset3 m c) (Value.step3 m c) b 7 h (ix2 a q)
      = (∑ s ∈ Finset.range 8, addend m c (b + s) a q) * Ideal.ofBits .f32 0x38A47B86#32
        + bBlk m c ⟨b + 7, h⟩ (ix1 q) * Ideal.ofBits .f32 0x38D1B717#32 := by
  have h6 : Pipeline.accAt (Value.reset3 m c) (Value.step3 m c) b 6 (Nat.lt_of_succ_lt h) (ix2 a q)
      = k0_pay1 (F := Ideal) (ix2 a q) + ∑ s ∈ Finset.range 7, addend m c (b + s) a q :=
    Pipeline.accAt_add_apply (Value.reset3 m c) (Value.step3 m c) (fun j => k0_pay1 (F := Ideal) j)
      (fun n j => addend m c n (j 0) (j 1)) b 6
      (fun hb' j => by
        obtain ⟨a', q', rfl⟩ : ∃ (a' : Fin 1024) (q' : Fin 2048), j = ix2 a' q' := ⟨j 0, j 1, eq_ix2 j⟩
        exact reset_apply m c b hb' a' q')
      (fun n hn acc j h1 h2 => by
        obtain ⟨a', q', rfl⟩ : ∃ (a' : Fin 1024) (q' : Fin 2048), j = ix2 a' q' := ⟨j 0, j 1, eq_ix2 j⟩
        exact middle_apply m c n hn (by omega) (by omega) acc a' q')
      6 (le_refl 6) (Nat.lt_of_succ_lt h) (ix2 a q)
  refine (congrFun (Pipeline.accAt_succ (Value.reset3 m c) (Value.step3 m c) b 6 h) (ix2 a q)).trans ?_
  refine (last_apply m c (b + 7) h (by omega) _ a q).trans ?_
  rw [h6, zeros_apply, zero_add, Finset.sum_range_succ _ 7]

/-! ## The result array -/

/-- The kernel's result array is the quantized layer of the three argument arrays. -/
theorem result_eq (c : Dev nD) :
    (Value.G3 m c : S8192x4096.Idx → EReal)
      = Cert.Quant.layer (m ((c : Thread nD τ).loc main_arg0)) (m ((c : Thread nD τ).loc main_arg1))
          (m ((c : Thread nD τ).loc main_arg2)) := by
  funext i
  have hi0 : (i 0).val < 8192 := (i 0).isLt
  have hi1 : (i 1).val < 4096 := (i 1).isLt
  have hN : cfg0.N = 128 := N_0
  have hrun : Value.run3Of i = 2 * ((i 0).val / 1024) + (i 1).val / 2048 := by
    show 2 * ((i 0).val / 1024 - 0) + 1 * ((i 1).val / 2048 - 0) = _
    omega
  have hloc : Value.loc3Of i = ix2 (⟨(i 0).val % 1024, Nat.mod_lt _ (by decide)⟩ : Fin 1024)
      (⟨(i 1).val % 2048, Nat.mod_lt _ (by decide)⟩ : Fin 2048) :=
    funext fun ax => by match ax with | ⟨0, _⟩ => rfl | ⟨1, _⟩ => rfl
  have hlt : 8 * Value.run3Of i + 7 < cfg0.N := by rw [hrun, hN]; omega
  rw [show Value.G3 m c i = _ from dif_pos hlt, hloc]
  refine (fold_apply m c _ (by omega) hlt _ _).trans ?_
  unfold Cert.Quant.layer
  refine congrArg₂ (fun u v : EReal => u * Ideal.ofBits .f32 0x38A47B86#32 + v * Ideal.ofBits .f32 0x38D1B717#32) ?_ ?_
  · refine Cert.Lib.BlockSum.sum_range_blocks (J := 8) (K := 512) (by norm_num : 8 * 512 = 4096)
      (fun k : Fin 4096 => Cert.Quant.qshift ((m ((c : Thread nD τ).loc main_arg0) : S8192x4096.Idx → EReal) (ix2 (i 0) k))
        * (m ((c : Thread nD τ).loc main_arg1) : S4096x4096.Idx → EReal) (ix2 (i 1) k))
      (fun s => addend m c (8 * Value.run3Of i + s) _ _) (fun s => ?_)
    have hs : s.val < 8 := s.isLt
    have hp : 8 * Value.run3Of i + s.val < cfg0.N := by rw [hrun, hN]; omega
    unfold addend
    rw [dif_pos hp]
    refine Finset.sum_congr rfl fun kk _ => ?_
    have hkk : kk.val < 512 := kk.isLt
    exact congrArg₂ (fun u v : EReal => Cert.Quant.qshift u * v)
      (x_block m c ⟨_, hp⟩ _ kk (i 0) ⟨512 * s.val + kk.val, Cert.Lib.BlockSum.block_lt (by norm_num) s kk⟩
        (by show (i 0).val = 1024 * ((8 * Value.run3Of i + s.val) / 16) + (i 0).val % 1024; rw [hrun]; omega)
        (by show 512 * s.val + kk.val = 512 * ((8 * Value.run3Of i + s.val) % 8) + kk.val; rw [hrun]; omega))
      (w_block m c ⟨_, hp⟩ _ kk (i 1) ⟨512 * s.val + kk.val, Cert.Lib.BlockSum.block_lt (by norm_num) s kk⟩
        (by show (i 1).val = 2048 * ((8 * Value.run3Of i + s.val) / 8 % 2) + (i 1).val % 2048; rw [hrun]; omega)
        (by show 512 * s.val + kk.val = 512 * ((8 * Value.run3Of i + s.val) % 8) + kk.val; rw [hrun]; omega))
  · exact b_block m c ⟨_, hlt⟩ _ (i 1)
      (by show (i 1).val = 2048 * ((8 * Value.run3Of i + 7) / 8 % 2) + (i 1).val % 2048; rw [hrun]; omega)

end Cert.KernelBridge

end
-- ==== Proof.lean ====
/-
  A quantized linear layer computed tile by tile against the same layer computed at once.

  Both programs quantize the activations to the 8-bit grid and shift them by the zero point, contract them with the
  weights over the 4096 input features, scale the result and add the scaled bias.  The reference does the contraction
  as one product of whole arrays.  The kernel cuts the result into `1024 × 2048` blocks and the features into eight
  blocks of 512; a result block is zeroed at the first feature block, gains one block product per feature block, and
  is scaled and biased at the last.  On extended reals the eight block sums add up to the whole contraction by
  commutativity and associativity of addition alone, so both results are the one function `Cert.Quant.layer` of the
  arguments, with no appeal to their finiteness; the rounding of the weights and of the shifted activations to bf16
  is the identity there.  The idealization rewrote no operation, so there is nothing to preserve beyond that.
-/
import proofs.«137161_j16810501996913_2_alg».proof.Defs
import proofs.«137161_j16810501996913_2_alg».proof.Proof.Gen.Kernel.Frame
import proofs.«137161_j16810501996913_2_alg».proof.Proof.Gen.KernelIdeal.Value
import proofs.«137161_j16810501996913_2_alg».proof.Proof.Gen.Pre_finite_inputs
import proofs.«137161_j16810501996913_2_alg».proof.Proof.Gen.ReferenceIdeal.Run
import proofs.«137161_j16810501996913_2_alg».proof.Proof.Reference
import proofs.«137161_j16810501996913_2_alg».proof.Proof.KernelValue
import Idealize.ShloMosaic.Adequacy
import Idealize.ShloMosaic.Init

noncomputable section

namespace Cert.Proof

open Idealize.ShloMosaic Idealize.SL.Sem

/-- The idealized kernel runs and leaves its arguments as they were: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the arguments both programs end with the quantized layer of those arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact ((Cert.ReferenceIdeal.Read.val_main_v15_eq _ _ _).trans (Cert.RefBridge.result_eq _ _ _)).trans
    (Cert.KernelBridge.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
